-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x32 .f32) (main_arg1 : IVec S2x1600000 32) (main_arg2 : FVec F S32x64 .f32) (main_arg3 : FVec F S32x64 .f32) (main_arg4 : FVec F S64 .f32) (main_arg5 : FVec F S128x64 .f32) (main_arg6 : FVec F S64 .f32) (main_arg7 : FVec F S64x1 .f32) (main_arg8 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S64x64 : Shape := ⟨2, ![64, 64]⟩
abbrev S1x1 : Shape := ⟨2, ![1, 1]⟩
abbrev S8000x64 : Shape := ⟨2, ![8000, 64]⟩
abbrev S8000x1 : Shape := ⟨2, ![8000, 1]⟩

abbrev nBuf : Space → Nat
  | .hbm => 63
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S32x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x32, .f32⟩
  | .hbm, ⟨37, _⟩ => ⟨S100000x32, .f32⟩
  | .hbm, ⟨38, _⟩ => ⟨S1x64, .f32⟩
  | .hbm, ⟨39, _⟩ => ⟨S100000x64, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .bf16⟩
  | .hbm, ⟨58, _⟩ => ⟨S64x64, .f32⟩
  | .hbm, ⟨59, _⟩ => ⟨S64x64, .f32⟩
  | .hbm, ⟨60, _⟩ => ⟨S1x64, .f32⟩
  | .hbm, ⟨61, _⟩ => ⟨S1x1, .f32⟩
  | .hbm, ⟨62, _⟩ => ⟨S1600000x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S5000x64, .bf16⟩
  | .local _ .vmem, ⟨8, _⟩ => ⟨S5000x64, .bf16⟩
  | .local _ .vmem, ⟨9, _⟩ => ⟨S8000x64, .bf16⟩
  | .local _ .vmem, ⟨10, _⟩ => ⟨S8000x64, .bf16⟩
  | .local _ .vmem, ⟨11, _⟩ => ⟨S8000x64, .bf16⟩
  | .local _ .vmem, ⟨12, _⟩ => ⟨S8000x64, .bf16⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S8000x1, .f32⟩
  | .local _ .vmem, ⟨19, _⟩ => ⟨S8000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  slices_S128x64_S64x64_0_0 : S128x64.Slices ![0, 0] S64x64
  slices_S128x64_S64x64_64_0 : S128x64.Slices ![64, 0] S64x64
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .bf16 = 32 ∨ (Rect.block (s := S100000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .bf16 = 32 ∨ (Rect.block (s := S1600000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .bf16 = 32 ∨ (Rect.block (s := S1600000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x1.size a ≤ S1600000x1.size a
  hwx1_7 : ∀ i : grid1.Coords, EltTy.bits .f32 = 32 ∨ (Rect.block (s := S1600000x1) S8000x1.size (cc1_transform_7 i) (hinb1_7 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v22) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S8000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1600000x128 : Shape := ⟨2, ![1600000, 128]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S32x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x32, .f32⟩
  | .hbm, ⟨37, _⟩ => ⟨S100000x32, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x128, .f32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S1600000x1, .f32⟩
  | .hbm, ⟨70, _⟩ => ⟨S1x1, .f32⟩
  | .hbm, ⟨71, _⟩ => ⟨S1600000x1, .f32⟩
  | .hbm, ⟨72, _⟩ => ⟨S1600000x1, .f32⟩
  | .hbm, ⟨73, _⟩ => ⟨S1600000x1, .f32⟩
  | .hbm, ⟨74, _⟩ => ⟨S1600000x1, .f32⟩
  | .hbm, ⟨75, _⟩ => ⟨S1600000x1, .f32⟩
  | .hbm, ⟨76, _⟩ => ⟨S_, .f32⟩
  | .hbm, ⟨77, _⟩ => ⟨S1600000x1, .f32⟩
  | .hbm, ⟨78, _⟩ => ⟨S1600000x1, .f32⟩
  | .hbm, ⟨79, _⟩ => ⟨S_, .f32⟩
  | .hbm, ⟨80, _⟩ => ⟨S1600000x1, .f32⟩
  | .hbm, ⟨81, _⟩ => ⟨S1600000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x1_S1600000x1_1_0_0_1_n_n_wf : DotDims.WF S1600000x64 S64x1 S1600000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.KernelRun.lean ====
/-
  THE KERNEL PROGRAM'S RUN, WITH ITS RESULT NAMED.

  The program is four segments: host operations, the node kernel, host operations, the edge kernel. Its run from
  any memory terminates without a fault; the buffers at each segment boundary are a fold through the segments
  (`W0` … `W4` of the frame module), and at the end every unscoped buffer holds the last fold's contents. Read
  at the result buffer and at the nine argument buffers this gives: the result is `W4` at the result buffer, and the
  arguments are unchanged.
-/
import proofs.«123352_j36112085025196_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Result

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«123352_j36112085025196_1_alg».proof.Proof.LibPlainDot
import proofs.«123352_j36112085025196_1_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibSplitDot.lean ====
/-
  A PRODUCT WHOSE CONTRACTED AXIS IS SEVERAL BLOCKS LAID SIDE BY SIDE, on the extended reals, generic in the extents.

  If the columns of C : [A, Kt] are the columns of X1 : [A, K1] followed by those of X2 : [A, K2] (Kt = K1 + K2), then
  row by row  C · W = X1 · W[0 : K1] + X2 · W[K1 : Kt] : the sum over the contracted index splits at K1. The same with
  three blocks. Only the associativity of a finite sum is used, so no entry has to be finite.

  * `sum_split2`, `sum_split3`   — a sum over Fin Kt cut into two (three) consecutive ranges;
  * `side2`, `side3`             — blocks side by side along axis 1; `rowsFrom` — K consecutive rows of a matrix;
  * `prod_side2`, `prod_side3`   — the product law;
  * `concat2_eq`, `concat3_eq`   — the host's concatenate along axis 1 of two (three) arrays IS `side2` (`side3`);
  * `slice_eq`                    — a unit-stride slice of whole rows IS `rowsFrom`.

  Nothing here depends on a program.
-/
import proofs.«123352_j36112085025196_1_alg».proof.Proof.LibDenseLayer
import Idealize.ShloMosaic.Lib.ValueIdx
import Idealize.ShloMosaic.Lib.Pipeline.Value
import Idealize.ShloMosaic.PureOps.Ideal.Laws

noncomputable section

open scoped BigOperators

namespace Cert.SplitDot

open Idealize.ShloMosaic Idealize.ShloMosaic.ValueIdx Cert.Layer

/-! ## A finite sum cut into consecutive ranges -/

theorem sum_split2 {K1 K2 Kt : Nat} (h : Kt = K1 + K2) (f : Fin Kt → EReal) :
    ∑ k : Fin Kt, f k
      = (∑ k : Fin K1, f ⟨k.val, by have := k.isLt; omega⟩) + ∑ k : Fin K2, f ⟨K1 + k.val, by have := k.isLt; omega⟩ := by
  subst h
  rw [Fin.sum_univ_add]
  rfl

theorem sum_split3 {K1 K2 K3 Kt : Nat} (h : Kt = K1 + K2 + K3) (f : Fin Kt → EReal) :
    ∑ k : Fin Kt, f k
      = (∑ k : Fin K1, f ⟨k.val, by have := k.isLt; omega⟩) + (∑ k : Fin K2, f ⟨K1 + k.val, by have := k.isLt; omega⟩)
        + ∑ k : Fin K3, f ⟨K1 + K2 + k.val, by have := k.isLt; omega⟩ := by
  subst h
  rw [Fin.sum_univ_add, Fin.sum_univ_add]
  rfl

/-! ## Blocks side by side, and consecutive rows -/

variable {A B : Nat}

/-- X1 : [A, K1] and X2 : [A, K2] side by side: column k is X1's for k < K1, X2's column k − K1 after that. -/
def side2 {K1 K2 Kt : Nat} (h : Kt = K1 + K2) (X1 : (⟨2, ![A, K1]⟩ : Shape).Idx → EReal)
    (X2 : (⟨2, ![A, K2]⟩ : Shape).Idx → EReal) : (⟨2, ![A, Kt]⟩ : Shape).Idx → EReal :=
  fun i => if hk : (i 1).val < K1 then X1 (ix2 (i 0) ⟨(i 1).val, hk⟩)
    else X2 (ix2 (i 0) ⟨(i 1).val - K1, by have := idx2_lt1 i; omega⟩)

/-- Three blocks side by side. -/
def side3 {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal) :
    (⟨2, ![A, Kt]⟩ : Shape).Idx → EReal :=
  fun i => if hk : (i 1).val < K1 then X1 (ix2 (i 0) ⟨(i 1).val, hk⟩)
    else if hk2 : (i 1).val < K1 + K2 then X2 (ix2 (i 0) ⟨(i 1).val - K1, by omega⟩)
    else X3 (ix2 (i 0) ⟨(i 1).val - (K1 + K2), by have := idx2_lt1 i; omega⟩)

/-- Rows K0, …, K0 + K − 1 of W : [Kt, B]. -/
def rowsFrom {Kt : Nat} (K0 K : Nat) (h : K0 + K ≤ Kt) (W : (⟨2, ![Kt, B]⟩ : Shape).Idx → EReal) :
    (⟨2, ![K, B]⟩ : Shape).Idx → EReal :=
  fun i => W (ix2 (⟨K0 + (i 0).val, by have := idx2_lt0 i; omega⟩ : Fin Kt) (i 1))

/-! ## The product law -/

theorem prod_side2 {K1 K2 Kt : Nat} (h : Kt = K1 + K2) (X1 : (⟨2, ![A, K1]⟩ : Shape).Idx → EReal)
    (X2 : (⟨2, ![A, K2]⟩ : Shape).Idx → EReal) (W : (⟨2, ![Kt, B]⟩ : Shape).Idx → EReal) :
    prod (side2 h X1 X2) W
      = fun i => prod X1 (rowsFrom 0 K1 (by omega) W) i + prod X2 (rowsFrom K1 K2 (by omega) W) i :=
  funext fun i => by
    show ∑ k : Fin Kt, side2 h X1 X2 (ix2 (i 0) k) * W (ix2 k (i 1)) = _
    rw [sum_split2 h]
    refine congrArg₂ (· + ·) (Finset.sum_congr rfl fun k _ => ?_) (Finset.sum_congr rfl fun k _ => ?_)
    · show side2 h X1 X2 (ix2 (i 0) ⟨k.val, _⟩) * W (ix2 ⟨k.val, _⟩ (i 1))
        = X1 (ix2 (i 0) k) * W (ix2 ⟨0 + k.val, _⟩ (i 1))
      have e : side2 h X1 X2 (ix2 (i 0) (⟨k.val, by have := k.isLt; omega⟩ : Fin Kt)) = X1 (ix2 (i 0) k) :=
        dif_pos k.isLt
      rw [e]
      exact congrArg (fun j : Fin Kt => X1 (ix2 (i 0) k) * W (ix2 j (i 1))) (Fin.ext (Nat.zero_add _).symm)
    · show side2 h X1 X2 (ix2 (i 0) ⟨K1 + k.val, _⟩) * W (ix2 ⟨K1 + k.val, _⟩ (i 1))
        = X2 (ix2 (i 0) k) * W (ix2 ⟨K1 + k.val, _⟩ (i 1))
      have e : side2 h X1 X2 (ix2 (i 0) (⟨K1 + k.val, by have := k.isLt; omega⟩ : Fin Kt)) = X2 (ix2 (i 0) k) := by
        refine (dif_neg (show ¬ K1 + k.val < K1 by omega)).trans ?_
        congr 2
        exact Fin.ext (by show K1 + k.val - K1 = k.val; omega)
      rw [e]

theorem prod_side3 {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal)
    (W : (⟨2, ![Kt, B]⟩ : Shape).Idx → EReal) :
    prod (side3 h X1 X2 X3) W
      = fun i => prod X1 (rowsFrom 0 K1 (by omega) W) i + prod X2 (rowsFrom K1 K2 (by omega) W) i
          + prod X3 (rowsFrom (K1 + K2) K3 (by omega) W) i :=
  funext fun i => by
    show ∑ k : Fin Kt, side3 h X1 X2 X3 (ix2 (i 0) k) * W (ix2 k (i 1)) = _
    rw [sum_split3 h]
    refine congrArg₂ (· + ·) (congrArg₂ (· + ·) (Finset.sum_congr rfl fun k _ => ?_)
      (Finset.sum_congr rfl fun k _ => ?_)) (Finset.sum_congr rfl fun k _ => ?_)
    · show side3 h X1 X2 X3 (ix2 (i 0) ⟨k.val, _⟩) * W (ix2 ⟨k.val, _⟩ (i 1))
        = X1 (ix2 (i 0) k) * W (ix2 ⟨0 + k.val, _⟩ (i 1))
      have e : side3 h X1 X2 X3 (ix2 (i 0) (⟨k.val, by have := k.isLt; omega⟩ : Fin Kt)) = X1 (ix2 (i 0) k) :=
        dif_pos k.isLt
      rw [e]
      exact congrArg (fun j : Fin Kt => X1 (ix2 (i 0) k) * W (ix2 j (i 1))) (Fin.ext (Nat.zero_add _).symm)
    · show side3 h X1 X2 X3 (ix2 (i 0) ⟨K1 + k.val, _⟩) * W (ix2 ⟨K1 + k.val, _⟩ (i 1))
        = X2 (ix2 (i 0) k) * W (ix2 ⟨K1 + k.val, _⟩ (i 1))
      have e : side3 h X1 X2 X3 (ix2 (i 0) (⟨K1 + k.val, by have := k.isLt; omega⟩ : Fin Kt)) = X2 (ix2 (i 0) k) := by
        refine (dif_neg (show ¬ K1 + k.val < K1 by omega)).trans
          ((dif_pos (show K1 + k.val < K1 + K2 by have := k.isLt; omega)).trans ?_)
        congr 2
        exact Fin.ext (by show K1 + k.val - K1 = k.val; omega)
      rw [e]
    · show side3 h X1 X2 X3 (ix2 (i 0) ⟨K1 + K2 + k.val, _⟩) * W (ix2 ⟨K1 + K2 + k.val, _⟩ (i 1))
        = X3 (ix2 (i 0) k) * W (ix2 ⟨K1 + K2 + k.val, _⟩ (i 1))
      have e : side3 h X1 X2 X3 (ix2 (i 0) (⟨K1 + K2 + k.val, by have := k.isLt; omega⟩ : Fin Kt)) = X3 (ix2 (i 0) k) := by
        refine (dif_neg (show ¬ K1 + K2 + k.val < K1 by omega)).trans
          ((dif_neg (show ¬ K1 + K2 + k.val < K1 + K2 by omega)).trans ?_)
        congr 2
        exact Fin.ext (by show K1 + K2 + k.val - (K1 + K2) = k.val; omega)
      rw [e]

/-! ## The host's spellings -/

/-- The host's concatenate of two arrays along axis 1 is the two side by side. -/
theorem concat2_eq {K1 K2 Kt : Nat} (h : Kt = K1 + K2) (X1 : (⟨2, ![A, K1]⟩ : Shape).Idx → EReal)
    (X2 : (⟨2, ![A, K2]⟩ : Shape).Idx → EReal)
    (hc : Shape.Concatenates [(⟨2, ![A, K1]⟩ : Shape), ⟨2, ![A, K2]⟩] ⟨2, ![A, Kt]⟩ 1) :
    concatenate ⟨2, ![A, Kt]⟩ 1 [⟨⟨2, ![A, K1]⟩, X1⟩, ⟨⟨2, ![A, K2]⟩, X2⟩] hc = side2 h X1 X2 :=
  funext fun i => by
    obtain ⟨a, k, rfl⟩ : ∃ (a : Fin A) (k : Fin Kt), i = ix2 a k := ⟨i 0, i 1, eq_ix2 i⟩
    by_cases hk : k.val < K1
    · refine (concatenate_pair_apply_left 1 X1 X2 hc (ix2 a k) rfl (ix2 a ⟨k.val, hk⟩) fun b => ?_).trans
        (show side2 h X1 X2 (ix2 a k) = X1 (ix2 a ⟨k.val, hk⟩) from dif_pos hk).symm
      match b with
      | ⟨0, _⟩ => rfl
      | ⟨1, _⟩ => rfl
    · refine (concatenate_pair_apply_right 1 X1 X2 hc (ix2 a k) rfl rfl
        (ix2 a ⟨k.val - K1, by have := k.isLt; omega⟩) (fun b hb => ?_) ?_).trans
        (show side2 h X1 X2 (ix2 a k) = X2 (ix2 a ⟨k.val - K1, by have := k.isLt; omega⟩) from dif_neg hk).symm
      · match b with
        | ⟨0, _⟩ => rfl
        | ⟨1, _⟩ => exact absurd rfl hb
      · show k.val - K1 + K1 = k.val
        omega

/-- The host's concatenate of three arrays along axis 1 is the three side by side. -/
theorem concat3_eq {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal)
    (hc : Shape.Concatenates [(⟨2, ![A, K1]⟩ : Shape), ⟨2, ![A, K2]⟩, ⟨2, ![A, K3]⟩] ⟨2, ![A, Kt]⟩ 1) :
    concatenate ⟨2, ![A, Kt]⟩ 1 [⟨⟨2, ![A, K1]⟩, X1⟩, ⟨⟨2, ![A, K2]⟩, X2⟩, ⟨⟨2, ![A, K3]⟩, X3⟩] hc = side3 h X1 X2 X3 :=
  funext fun i => by
    obtain ⟨a, k, rfl⟩ : ∃ (a : Fin A) (k : Fin Kt), i = ix2 a k := ⟨i 0, i 1, eq_ix2 i⟩
    by_cases hk : k.val < K1
    · refine (concatenate_apply_piece 1 [⟨⟨2, ![A, K1]⟩, X1⟩, ⟨⟨2, ![A, K2]⟩, X2⟩, ⟨⟨2, ![A, K3]⟩, X3⟩] hc (ix2 a k) 0 (Nat.zero_lt_succ _) ⟨2, ![A, K1]⟩ X1 rfl rfl 0 rfl
        (ix2 a ⟨k.val, hk⟩) (fun b hb => ?_) ?_).trans
        (show side3 h X1 X2 X3 (ix2 a k) = X1 (ix2 a ⟨k.val, hk⟩) from dif_pos hk).symm
      · match b with
        | ⟨0, _⟩ => rfl
        | ⟨1, _⟩ => exact absurd rfl hb
      · show 0 + k.val = k.val
        omega
    · by_cases hk2 : k.val < K1 + K2
      · refine (concatenate_apply_piece 1 [⟨⟨2, ![A, K1]⟩, X1⟩, ⟨⟨2, ![A, K2]⟩, X2⟩, ⟨⟨2, ![A, K3]⟩, X3⟩] hc (ix2 a k) 1 (Nat.succ_lt_succ (Nat.zero_lt_succ _)) ⟨2, ![A, K2]⟩ X2 rfl rfl K1 ?_
          (ix2 a ⟨k.val - K1, by omega⟩) (fun b hb => ?_) ?_).trans
          (show side3 h X1 X2 X3 (ix2 a k) = X2 (ix2 a ⟨k.val - K1, by omega⟩) from
            (dif_neg hk).trans (dif_pos hk2)).symm
        · simp
        · match b with
          | ⟨0, _⟩ => rfl
          | ⟨1, _⟩ => exact absurd rfl hb
        · show K1 + (k.val - K1) = k.val
          omega
      · refine (concatenate_apply_piece 1 [⟨⟨2, ![A, K1]⟩, X1⟩, ⟨⟨2, ![A, K2]⟩, X2⟩, ⟨⟨2, ![A, K3]⟩, X3⟩] hc (ix2 a k) 2 (Nat.succ_lt_succ (Nat.succ_lt_succ (Nat.zero_lt_succ _))) ⟨2, ![A, K3]⟩ X3 rfl rfl (K1 + K2) ?_
          (ix2 a ⟨k.val - (K1 + K2), by have := k.isLt; omega⟩) (fun b hb => ?_) ?_).trans
          (show side3 h X1 X2 X3 (ix2 a k) = X3 (ix2 a ⟨k.val - (K1 + K2), by have := k.isLt; omega⟩) from
            (dif_neg hk).trans (dif_neg hk2)).symm
        · simp
        · match b with
          | ⟨0, _⟩ => rfl
          | ⟨1, _⟩ => exact absurd rfl hb
        · show K1 + K2 + (k.val - (K1 + K2)) = k.val
          omega

/-- A unit-stride slice of K whole rows starting at row K0 is those rows. -/
theorem slice_eq {Kt : Nat} (K0 K : Nat) (h : K0 + K ≤ Kt) (W : (⟨2, ![Kt, B]⟩ : Shape).Idx → EReal)
    (hs : (⟨2, ![Kt, B]⟩ : Shape).Slices ![K0, 0] ⟨2, ![K, B]⟩) :
    extractStridedSlice ⟨2, ![K, B]⟩ ![K0, 0] W hs = rowsFrom K0 K h W :=
  funext fun i => by
    obtain ⟨k, b, rfl⟩ : ∃ (k : Fin K) (b : Fin B), i = ix2 k b := ⟨i 0, i 1, eq_ix2 i⟩
    refine extractStridedSlice_apply ![K0, 0] W hs (ix2 k b) (ix2 (⟨K0 + k.val, by have := k.isLt; omega⟩ : Fin Kt) b)
      fun a => ?_
    match a with
    | ⟨0, _⟩ => rfl
    | ⟨1, _⟩ => exact (Nat.zero_add _).symm

end Cert.SplitDot

end
-- ==== Proof.LibEdgeScore.lean ====
/-
  THE TWO DENSE STAGES OF AN EDGE-SCORING NETWORK, as functions of whole arrays on the extended reals, generic in
  the extents.

  * `tanhLayer X Y W W' b`  — (r, c) ↦ tanh((Σ_k X(r, k)·W(k, c) + Σ_k Y(r, k)·W'(k, c)) + b(0, c)): two plain
    products added, a bias row added to every row, the hyperbolic tangent entry by entry. A node's embedding from
    its neighbourhood mean and its own features has this form, and so has an edge's hidden vector from the
    embeddings of its two end points.
  * `score Z w b`           — (r, c) ↦ logistic(tanh(Σ_k Z(r, k)·w(k, c) + b(0, c))).

  Both read, at an output row r, only row r of their row operands (`tanhLayer_row`, `score_row`): a block of
  consecutive rows of the result is the same function of the same block of rows of the operands.

  A kernel spells the first as two matrix products into zero accumulators, an addition, the bias row broadcast to
  every row and added, and a tanh (`kernel_tanhLayer`); the second as one product, the broadcast bias, tanh and the
  logistic function (`kernel_score`). At the ideal values a rounding to a narrower format is the identity.

  The host spells the first with the bias added before the second product, tanh((X·W + b) + Y·W')
  (`host_tanhLayer`: addition on the extended reals is commutative and associative, so the order of the three
  summands does not matter), or with one product over the two row operands laid side by side against a weight
  matrix of twice the height, tanh([X | Y]·W + b) (`host_tanhLayer_concat`: the contraction sum splits at the
  seam into the products with the upper and the lower half of W); and the second with the logistic function
  written out as 1 / (1 + exp(−z)) (`host_score`), which is how the extended-real logistic is defined. The host
  keeps a bias as a vector; `rowOf` reads it as a one-row matrix, which is also what casting it to one row gives.

  Nothing here depends on a program.
-/
import proofs.«123352_j36112085025196_1_alg».proof.Proof.LibSplitDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgeScore

open Idealize.ShloMosaic Idealize.ShloMosaic.ValueIdx Cert.Layer Cert.Lib.PlainDot Cert.SplitDot

variable {A K B : Nat}

/-- tanh of two plain products added and a bias row added to every row. -/
def tanhLayer (X Y : (⟨2, ![A, K]⟩ : Shape).Idx → EReal) (W W' : (⟨2, ![K, B]⟩ : Shape).Idx → EReal)
    (b : (⟨2, ![1, B]⟩ : Shape).Idx → EReal) : (⟨2, ![A, B]⟩ : Shape).Idx → EReal :=
  fun i => Ideal.tanh ((prod X W i + prod Y W' i) + b (ix2 (0 : Fin 1) (i 1)))

/-- The logistic function of tanh of a plain product with a bias row added to every row. -/
def score (Z : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun i => Ideal.logistic (Ideal.tanh (prod Z w i + b (ix2 (0 : Fin 1) (i 1))))

/-! ## Row-locality -/

/-- Row p of X' · W is row r of X · W when row p of X' is row r of X. -/
theorem prod_row {A' : Nat} (X : (⟨2, ![A, K]⟩ : Shape).Idx → EReal) (X' : (⟨2, ![A', K]⟩ : Shape).Idx → EReal)
    (W : (⟨2, ![K, B]⟩ : Shape).Idx → EReal) (p : Fin A') (r : Fin A) (q : Fin B)
    (hX : ∀ k : Fin K, X' (ix2 p k) = X (ix2 r k)) : prod X' W (ix2 p q) = prod X W (ix2 r q) := by
  show ∑ k : Fin K, X' (ix2 p k) * W (ix2 k q) = ∑ k : Fin K, X (ix2 r k) * W (ix2 k q)
  exact Finset.sum_congr rfl fun k _ => by rw [hX k]

theorem tanhLayer_row {A' : Nat} (X Y : (⟨2, ![A, K]⟩ : Shape).Idx → EReal)
    (X' Y' : (⟨2, ![A', K]⟩ : Shape).Idx → EReal) (W W' : (⟨2, ![K, B]⟩ : Shape).Idx → EReal)
    (b : (⟨2, ![1, B]⟩ : Shape).Idx → EReal) (p : Fin A') (r : Fin A) (q : Fin B)
    (hX : ∀ k : Fin K, X' (ix2 p k) = X (ix2 r k)) (hY : ∀ k : Fin K, Y' (ix2 p k) = Y (ix2 r k)) :
    tanhLayer X' Y' W W' b (ix2 p q) = tanhLayer X Y W W' b (ix2 r q) := by
  show Ideal.tanh ((prod X' W (ix2 p q) + prod Y' W' (ix2 p q)) + b (ix2 (0 : Fin 1) q))
    = Ideal.tanh ((prod X W (ix2 r q) + prod Y W' (ix2 r q)) + b (ix2 (0 : Fin 1) q))
  rw [prod_row X X' W p r q hX, prod_row Y Y' W' p r q hY]

theorem score_row {A' : Nat} (Z : (⟨2, ![A, K]⟩ : Shape).Idx → EReal) (Z' : (⟨2, ![A', K]⟩ : Shape).Idx → EReal)
    (w : (⟨2, ![K, B]⟩ : Shape).Idx → EReal) (b : (⟨2, ![1, B]⟩ : Shape).Idx → EReal) (p : Fin A') (r : Fin A)
    (q : Fin B) (hZ : ∀ k : Fin K, Z' (ix2 p k) = Z (ix2 r k)) :
    score Z' w b (ix2 p q) = score Z w b (ix2 r q) := by
  show Ideal.logistic (Ideal.tanh (prod Z' w (ix2 p q) + b (ix2 (0 : Fin 1) q)))
    = Ideal.logistic (Ideal.tanh (prod Z w (ix2 r q) + b (ix2 (0 : Fin 1) q)))
  rw [prod_row Z Z' w p r q hZ]

/-! ## A kernel's spelling -/

/-- Two matmuls into zero accumulators added, the bias row broadcast to every row added, tanh. -/
theorem kernel_tanhLayer {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X Y : FVec Ideal ⟨2, ![A, K]⟩ φ₁) (W W' : FVec Ideal ⟨2, ![K, B]⟩ φ₂) (b : FVec Ideal ⟨2, ![1, B]⟩ .f32)
    (hbc : (⟨2, ![1, B]⟩ : Shape).Broadcasts ⟨2, ![A, B]⟩) :
    (tanh (addf (addf (matmul d none X W (constant ⟨2, ![A, B]⟩ .f32 0x00000000#32))
        (matmul d none Y W' (constant ⟨2, ![A, B]⟩ .f32 0x00000000#32))) (broadcastTo ⟨2, ![A, B]⟩ b hbc))
      : FVec Ideal ⟨2, ![A, B]⟩ .f32) = tanhLayer X Y W W' b := by
  rw [eq_plain d h1 h2 h3 h4 h5 h6]
  funext j
  obtain ⟨p, q, rfl⟩ : ∃ (p : Fin A) (q : Fin B), j = ix2 p q := ⟨j 0, j 1, eq_ix2 j⟩
  show Ideal.tanh ((matmul (DotDims.plain A K B) none X W (constant ⟨2, ![A, B]⟩ .f32 0x00000000#32) (ix2 p q)
      + matmul (DotDims.plain A K B) none Y W' (constant ⟨2, ![A, B]⟩ .f32 0x00000000#32) (ix2 p q))
      + broadcastTo ⟨2, ![A, B]⟩ b hbc (ix2 p q)) = _
  rw [matmul_zero_plain_apply, matmul_zero_plain_apply, broadcastTo_1b_ab_apply]
  rfl

/-- One matmul into the zero accumulator, the bias row broadcast to every row added, tanh, the logistic function. -/
theorem kernel_score {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (Z : FVec Ideal ⟨2, ![A, K]⟩ φ₁) (w : FVec Ideal ⟨2, ![K, B]⟩ φ₂) (b : FVec Ideal ⟨2, ![1, B]⟩ .f32)
    (hbc : (⟨2, ![1, B]⟩ : Shape).Broadcasts ⟨2, ![A, B]⟩) :
    (logistic (tanh (addf (matmul d none Z w (constant ⟨2, ![A, B]⟩ .f32 0x00000000#32))
        (broadcastTo ⟨2, ![A, B]⟩ b hbc))) : FVec Ideal ⟨2, ![A, B]⟩ .f32) = score Z w b := by
  rw [eq_plain d h1 h2 h3 h4 h5 h6]
  funext j
  obtain ⟨p, q, rfl⟩ : ∃ (p : Fin A) (q : Fin B), j = ix2 p q := ⟨j 0, j 1, eq_ix2 j⟩
  show Ideal.logistic (Ideal.tanh (matmul (DotDims.plain A K B) none Z w (constant ⟨2, ![A, B]⟩ .f32 0x00000000#32) (ix2 p q)
      + broadcastTo ⟨2, ![A, B]⟩ b hbc (ix2 p q))) = _
  rw [matmul_zero_plain_apply, broadcastTo_1b_ab_apply]
  rfl

/-! ## The host's spellings -/

/-- A vector read as a one-row matrix. -/
def rowOf (v : (⟨1, ![B]⟩ : Shape).Idx → EReal) : (⟨2, ![1, B]⟩ : Shape).Idx → EReal := fun i => v (ix1 (i 1))

/-- Casting a vector to one row is `rowOf`. -/
theorem shapeCast_eq_rowOf (v : (⟨1, ![B]⟩ : Shape).Idx → EReal) (h : (⟨1, ![B]⟩ : Shape).ShapeCasts ⟨2, ![1, B]⟩) :
    shapeCast ⟨2, ![1, B]⟩ v h = rowOf v :=
  funext fun i => by
    obtain ⟨u, k, rfl⟩ : ∃ (u : Fin 1) (k : Fin B), i = ix2 u k := ⟨i 0, i 1, eq_ix2 i⟩
    exact shapeCast_a_1a_apply v h u k

/-- The extended real that the float word of 1.0 denotes is 1. -/
theorem ofBits_one_f32 : Ideal.ofBits .f32 0x3F800000#32 = 1 := by
  simp [Ideal.ofBits, Ideal.ieee, -EReal.coe_mul]; norm_num

/-- tanh((X·W + b) + Y·W') with the bias a vector broadcast to every row is the layer: the three summands in
    another order. -/
theorem host_tanhLayer (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X Y : FVec Ideal ⟨2, ![A, K]⟩ .f32) (W W' : FVec Ideal ⟨2, ![K, B]⟩ .f32) (o : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![A, B]⟩ ![0, 1]) :
    Host.tanh (addf (addf (Host.dotGeneral d none X W)
        (broadcastInDim ⟨2, ![A, B]⟩ ![0, 1] hb2 (broadcastInDim ⟨2, ![1, B]⟩ ![1] hb1 o))) (Host.dotGeneral d none Y W'))
      = tanhLayer X Y W W' (rowOf o) := by
  rw [dotGeneral_eq_prod d h1 h2 h3 h4 h5 h6, dotGeneral_eq_prod d h1 h2 h3 h4 h5 h6, hostAddRow_eq]
  funext i
  show Ideal.tanh ((prod X W i + o (ix1 (i 1))) + prod Y W' i) = Ideal.tanh ((prod X W i + prod Y W' i) + o (ix1 (i 1)))
  rw [add_right_comm]

/-- tanh([X | Y]·W + b): one product over the two row operands side by side is the layer over the upper and the
    lower half of W. -/
theorem host_tanhLayer_concat {Kt : Nat} (hK : Kt = K + K)
    (d : DotDims ⟨2, ![A, Kt]⟩ ⟨2, ![Kt, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X Y : FVec Ideal ⟨2, ![A, K]⟩ .f32) (W : FVec Ideal ⟨2, ![Kt, B]⟩ .f32) (o : FVec Ideal ⟨1, ![B]⟩ .f32)
    (hc : Shape.Concatenates [(⟨2, ![A, K]⟩ : Shape), ⟨2, ![A, K]⟩] ⟨2, ![A, Kt]⟩ 1)
    (hb1 : (⟨1, ![B]⟩ : Shape).BroadcastsInDim ⟨2, ![1, B]⟩ ![1])
    (hb2 : (⟨2, ![1, B]⟩ : Shape).BroadcastsInDim ⟨2, ![A, B]⟩ ![0, 1]) :
    Host.tanh (addf (Host.dotGeneral d none (concatenate ⟨2, ![A, Kt]⟩ 1 [⟨⟨2, ![A, K]⟩, X⟩, ⟨⟨2, ![A, K]⟩, Y⟩] hc) W)
        (broadcastInDim ⟨2, ![A, B]⟩ ![0, 1] hb2 (broadcastInDim ⟨2, ![1, B]⟩ ![1] hb1 o)))
      = tanhLayer X Y (rowsFrom 0 K (by omega) W) (rowsFrom K K (by omega) W) (rowOf o) := by
  rw [dotGeneral_eq_prod d h1 h2 h3 h4 h5 h6, concat2_eq hK X Y hc, prod_side2 hK X Y W, hostAddRow_eq]
  rfl

/-- 1 / (1 + exp(−tanh(Z·w + b))) with the bias a vector broadcast to every row and the ones broadcast scalars is
    `score`. -/
theorem host_score (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (Z : FVec Ideal ⟨2, ![A, K]⟩ .f32) (w : FVec Ideal ⟨2, ![K, B]⟩ .f32) (o : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![A, B]⟩ ![0, 1])
    (h0 : (⟨0, ![]⟩ : Shape).BroadcastsInDim ⟨2, ![A, B]⟩ ![]) :
    Host.divf (broadcastInDim ⟨2, ![A, B]⟩ ![] h0 (constant (F := Ideal) ⟨0, ![]⟩ .f32 0x3F800000#32))
        (addf (broadcastInDim ⟨2, ![A, B]⟩ ![] h0 (constant (F := Ideal) ⟨0, ![]⟩ .f32 0x3F800000#32))
          (Host.exp (Host.negf (Host.tanh (addf (Host.dotGeneral d none Z w)
            (broadcastInDim ⟨2, ![A, B]⟩ ![0, 1] hb2 (broadcastInDim ⟨2, ![1, B]⟩ ![1] hb1 o)))))))
      = score Z w (rowOf o) := by
  rw [dotGeneral_eq_prod d h1 h2 h3 h4 h5 h6, hostAddRow_eq]
  funext i
  have hone : broadcastInDim ⟨2, ![A, B]⟩ ![] h0 (constant (F := Ideal) ⟨0, ![]⟩ .f32 0x3F800000#32) i = 1 :=
    (broadcastInDim_apply ![] h0 _ i ix0 fun a => a.elim0).trans ofBits_one_f32
  show Ideal.div (broadcastInDim ⟨2, ![A, B]⟩ ![] h0 (constant (F := Ideal) ⟨0, ![]⟩ .f32 0x3F800000#32) i)
      (broadcastInDim ⟨2, ![A, B]⟩ ![] h0 (constant (F := Ideal) ⟨0, ![]⟩ .f32 0x3F800000#32) i
        + Ideal.exp (-(Ideal.tanh (prod Z w i + o (ix1 (i 1))))))
    = Ideal.logistic (Ideal.tanh (prod Z w i + o (ix1 (i 1))))
  rw [hone]
  rfl

end Cert.EdgeScore

end
-- ==== Proof.NodeValue.lean ====
/-
  WHAT THE NODE KERNEL LEAVES IN ITS OUTPUT ARRAY.

  The first kernel runs over 20 blocks of 5000 consecutive nodes. At block t it loads rows 5000·t … 5000·t + 4999 of
  the neighbourhood means M and of the features X, the two whole 32 × 64 weight matrices and the 1 × 64 bias row,
  and stores  tanh((M_t · W_l + X_t · W_r) + b)  as rows 5000·t … 5000·t + 4999 of the embedding array. The layer
  reads, at an output row, only that row of M and of X, so block t of the result is block t of the layer of the
  whole arrays; the 20 blocks tile the 100000 rows, so the array ends as

      H = tanhLayer M X W_l W_r b        (H(n, j) = tanh((Σ_k M(n, k)·W_l(k, j) + Σ_k X(n, k)·W_r(k, j)) + b(0, j))).

  Stated at any contents `V` of the buffers when the kernel is entered.
-/
import proofs.«123352_j36112085025196_1_alg».proof.Proof.Gen.KernelIdeal.Frame
import proofs.«123352_j36112085025196_1_alg».proof.Proof.LibEdgeScore
import Idealize.ShloMosaic.Lib.Pipeline.Value
import Idealize.ShloMosaic.Lib.ValueIdx

set_option maxRecDepth 16384

noncomputable section

namespace Cert.KernelIdeal.NodeValue

open Cert.KernelIdeal Cert.KernelIdeal.Gen Cert.EdgeScore
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer of those blocks. -/
theorem body_eq (x0 x1 : Vec Ideal S5000x32 .f32) (x2 x3 : Vec Ideal S32x64 .f32) (x4 : Vec Ideal S1x64 .f32) :
    k0_pay1 (F := Ideal) x0 x1 x2 x3 x4 = tanhLayer (A := 5000) (K := 32) (B := 64) x0 x1 x2 x3 x4 := by
  unfold k0_pay1
  simp only [shapeCast_self]
  exact kernel_tanhLayer (φ₁ := .bf16) (φ₂ := .bf16) dot_S5000x32_S32x64_S5000x64_1_0_0_1_n_n rfl rfl rfl rfl rfl rfl
    (truncf .bf16 x0 bitsLt_bf16_f32) (truncf .bf16 x1 bitsLt_bf16_f32) (truncf .bf16 x2 bitsLt_bf16_f32)
    (truncf .bf16 x3 bitsLt_bf16_f32) x4 broadcasts_S1x64_S5000x64

/-- The printed block index maps over the grid: the two row operands move with the output along the rows, the
    weights and the bias are one whole block, and the output's block index stays below 20. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every block of rows is some grid point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What grid point t writes back is block t of the layer of the whole arrays. -/
theorem flushed_eq (c : Dev nD) (t : Fin cfg0.N) :
    (dat0 V c).flushed 5 t = ((cfg0.win 5).blk t).view.read (Elt Ideal)
      (tanhLayer (A := 100000) (K := 32) (B := 64) (V c main_v22) (V c main_arg0) (V c main_arg2) (V c main_arg3)
        (V c main_v23)) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x64) hz, View.ld_unit_zero (S := S1x64) hz]
  rw [body_eq]
  obtain ⟨e0, e1, e2, e3, e4, e5, e6, e7, e8, e9, e10, e11⟩ := idx_facts t
  funext j
  obtain ⟨p, q, rfl⟩ : ∃ (p : Fin 5000) (q : Fin 64), j = ix2 p q := ⟨j 0, j 1, eq_ix2 j⟩
  have h2 : (iblk0 V c 2 t : S32x64.Idx → EReal) = V c main_arg2 := funext fun y => by
    show V c main_arg2 (((cfg0.win 2).blk t).view.emb y) = V c main_arg2 y
    refine congrArg _ (funext fun a => Fin.ext ?_)
    match a with
    | ⟨0, _⟩ => show win0_2.index t (0 : Fin 2) * 32 + 1 * (y 0).val = (y 0).val; omega
    | ⟨1, _⟩ => show win0_2.index t (1 : Fin 2) * 64 + 1 * (y 1).val = (y 1).val; omega
  have h3 : (iblk0 V c 3 t : S32x64.Idx → EReal) = V c main_arg3 := funext fun y => by
    show V c main_arg3 (((cfg0.win 3).blk t).view.emb y) = V c main_arg3 y
    refine congrArg _ (funext fun a => Fin.ext ?_)
    match a with
    | ⟨0, _⟩ => show win0_3.index t (0 : Fin 2) * 32 + 1 * (y 0).val = (y 0).val; omega
    | ⟨1, _⟩ => show win0_3.index t (1 : Fin 2) * 64 + 1 * (y 1).val = (y 1).val; omega
  have h4 : (iblk0 V c 4 t : S1x64.Idx → EReal) = V c main_v23 := funext fun y => by
    show V c main_v23 (((cfg0.win 4).blk t).view.emb y) = V c main_v23 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  have hp : p.val < 5000 := p.isLt
  have hr : ((cfg0.win 5).blk t).view.emb (ix2 p q)
      = ix2 (⟨win0_5.index t (0 : Fin 2) * 5000 + p.val, by omega⟩ : Fin 100000) q := funext fun a => Fin.ext (by
    match a with
    | ⟨0, _⟩ => show win0_5.index t (0 : Fin 2) * 5000 + 1 * p.val = win0_5.index t (0 : Fin 2) * 5000 + p.val; omega
    | ⟨1, _⟩ => show win0_5.index t (1 : Fin 2) * 64 + 1 * q.val = q.val; omega)
  show tanhLayer (A := 5000) (K := 32) (B := 64) (iblk0 V c 0 t) (iblk0 V c 1 t) (iblk0 V c 2 t) (iblk0 V c 3 t)
      (iblk0 V c 4 t) (ix2 p q)
    = tanhLayer (A := 100000) (K := 32) (B := 64) (V c main_v22) (V c main_arg0) (V c main_arg2) (V c main_arg3)
        (V c main_v23) (((cfg0.win 5).blk t).view.emb (ix2 p q))
  rw [hr, h2, h3, h4]
  refine tanhLayer_row (A := 100000) (A' := 5000) (V c main_v22) (V c main_arg0) (iblk0 V c 0 t) (iblk0 V c 1 t)
    (V c main_arg2) (V c main_arg3) (V c main_v23) p _ q (fun k => ?_) (fun k => ?_)
  · show V c main_v22 (((cfg0.win 0).blk t).view.emb (ix2 p k)) = V c main_v22 (ix2 _ k)
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 32 + 1 * k.val = k.val; omega
  · show V c main_arg0 (((cfg0.win 1).blk t).view.emb (ix2 p k)) = V c main_arg0 (ix2 _ k)
    refine congrArg _ (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 32 + 1 * k.val = k.val; omega

/-- An index of the array lies in point t's block iff each coordinate lies in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- The 20 blocks tile the array: row n lies in the block of point n / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The embedding array after the first kernel is the layer of the whole arrays it was entered with. -/
theorem final (c : Dev nD) :
    (dat0 V c).arrAt 5 cfg0.N = tanhLayer (A := 100000) (K := 32) (B := 64) (V c main_v22) (V c main_arg0)
      (V c main_arg2) (V c main_arg3) (V c main_v23) :=
  (dat0 V c).arrAt_eq_of_cover 5 _ (fun t _ => flushed_eq V c t) cover

end Cert.KernelIdeal.NodeValue

end
-- ==== Proof.EdgeValue.lean ====
/-
  WHAT THE EDGE KERNEL LEAVES IN ITS OUTPUT ARRAY.

  The second kernel runs over 200 blocks of 8000 consecutive edges. At block t it loads rows 8000·t … 8000·t + 7999
  of the two gathered embedding arrays Hs, Hd (the embeddings of each edge's source and destination), the two whole
  64 × 64 halves Wa, Wb of the first weight matrix, the bias row b1, the 64 × 1 second weight matrix w2 and the
  1 × 1 bias b2, and stores

      logistic(tanh( tanh((Hs_t · Wa + Hd_t · Wb) + b1) · w2 + b2 ))

  as rows 8000·t … 8000·t + 7999 of the result. Both stages read, at an output row, only that row of their row
  operands, so block t of the result is block t of the same two stages of the whole arrays; the 200 blocks tile
  the 1600000 rows, so the array ends as  score (tanhLayer Hs Hd Wa Wb b1) w2 b2.

  Stated at any contents `V` of the buffers when the kernel is entered.
-/
import proofs.«123352_j36112085025196_1_alg».proof.Proof.Gen.KernelIdeal.Frame
import proofs.«123352_j36112085025196_1_alg».proof.Proof.LibEdgeScore
import Idealize.ShloMosaic.Lib.Pipeline.Value
import Idealize.ShloMosaic.Lib.ValueIdx

set_option maxRecDepth 16384

noncomputable section

namespace Cert.KernelIdeal.EdgeValue

open Cert.KernelIdeal Cert.KernelIdeal.Gen Cert.EdgeScore
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the two stages of those blocks. -/
theorem body_eq (x0 x1 : Vec Ideal S8000x64 .bf16) (x2 x3 : Vec Ideal S64x64 .f32) (x4 : Vec Ideal S1x64 .f32)
    (x5 : Vec Ideal S64x1 .f32) (x6 : Vec Ideal S1x1 .f32) :
    k1_pay1 (F := Ideal) x0 x1 x2 x3 x4 x5 x6
      = score (A := 8000) (K := 64) (B := 1) (tanhLayer (A := 8000) (K := 64) (B := 64) x0 x1 x2 x3 x4) x5 x6 := by
  unfold k1_pay1
  simp only [shapeCast_self]
  have hH := kernel_tanhLayer (φ₁ := .bf16) (φ₂ := .bf16) dot_S8000x64_S64x64_S8000x64_1_0_0_1_n_n rfl rfl rfl rfl rfl rfl
    x0 x1 (truncf .bf16 x2 bitsLt_bf16_f32) (truncf .bf16 x3 bitsLt_bf16_f32) x4 broadcasts_S1x64_S8000x64
  rw [hH]
  exact kernel_score (φ₁ := .bf16) (φ₂ := .bf16) dot_S8000x64_S64x1_S8000x1_1_0_0_1_n_n rfl rfl rfl rfl rfl rfl
    (truncf .bf16 (tanhLayer (A := 8000) (K := 64) (B := 64) x0 x1 x2 x3 x4) bitsLt_bf16_f32)
    (truncf .bf16 x5 bitsLt_bf16_f32) x6 broadcasts_S1x1_S8000x1

/-- The printed block index maps over the grid: the two gathered arrays move with the output along the rows, the
    weights and the biases are one whole block each, and the output's block index stays below 200. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 199 ∧ win1_7.index t (1 : Fin 2) = 0 :=
  (by decide +kernel : ∀ t : Fin grid1.N, _)

/-- Every block of rows is some grid point's. -/
theorem idx_onto : ∀ q0 : Fin 200, ∃ t : Fin cfg1.N, win1_7.index t = ![q0.val, 0] :=
  (by decide +kernel : ∀ q0 : Fin 200, ∃ t : Fin grid1.N, win1_7.index t = ![q0.val, 0])

/-- What grid point t writes back is block t of the two stages of the whole arrays. -/
theorem flushed_eq (c : Dev nD) (t : Fin cfg1.N) :
    (dat1 V c).flushed 7 t = ((cfg1.win 7).blk t).view.read (Elt Ideal)
      (score (A := 1600000) (K := 64) (B := 1)
        (tanhLayer (A := 1600000) (K := 64) (B := 64) (V c main_v31) (V c main_v38) (V c main_v39) (V c main_v40)
          (V c main_v41)) (V c main_arg7) (V c main_v42)) := by
  show (cfg1.win 7).cut (grid1.coords t) ((dat1 V c).after 7 t) = _
  rw [after1_7]
  unfold out1_7
  rw [View.canon_unit_zero hz]
  simp only [View.ld_unit_zero (S := S8000x64) hz, View.ld_unit_zero (S := S64x64) hz, View.ld_unit_zero (S := S1x64) hz,
    View.ld_unit_zero (S := S64x1) hz, View.ld_unit_zero (S := S1x1) hz]
  rw [body_eq]
  obtain ⟨e0, e1, e2, e3, e4, e5, e6, e7, e8, e9, e10, e11, e12, e13, e14, e15⟩ := idx_facts t
  funext j
  obtain ⟨p, q, rfl⟩ : ∃ (p : Fin 8000) (q : Fin 1), j = ix2 p q := ⟨j 0, j 1, eq_ix2 j⟩
  have h2 : (iblk1 V c 2 t : S64x64.Idx → EReal) = V c main_v39 := funext fun y => by
    show V c main_v39 (((cfg1.win 2).blk t).view.emb y) = V c main_v39 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have h3 : (iblk1 V c 3 t : S64x64.Idx → EReal) = V c main_v40 := funext fun y => by
    show V c main_v40 (((cfg1.win 3).blk t).view.emb y) = V c main_v40 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  have h4 : (iblk1 V c 4 t : S1x64.Idx → EReal) = V c main_v41 := funext fun y => by
    show V c main_v41 (((cfg1.win 4).blk t).view.emb y) = V c main_v41 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  have h5 : (iblk1 V c 5 t : S64x1.Idx → EReal) = V c main_arg7 := funext fun y => by
    show V c main_arg7 (((cfg1.win 5).blk t).view.emb y) = V c main_arg7 y
    refine congrArg _ (funext fun a => Fin.ext ?_)
    match a with
    | ⟨0, _⟩ => show win1_5.index t (0 : Fin 2) * 64 + 1 * (y 0).val = (y 0).val; omega
    | ⟨1, _⟩ => show win1_5.index t (1 : Fin 2) * 1 + 1 * (y 1).val = (y 1).val; omega
  have h6 : (iblk1 V c 6 t : S1x1.Idx → EReal) = V c main_v42 := funext fun y => by
    show V c main_v42 (((cfg1.win 6).blk t).view.emb y) = V c main_v42 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 1 + 1 * (y 1).val = (y 1).val; omega
  have hp : p.val < 8000 := p.isLt
  have hr : ((cfg1.win 7).blk t).view.emb (ix2 p q)
      = ix2 (⟨win1_7.index t (0 : Fin 2) * 8000 + p.val, by omega⟩ : Fin 1600000) q := funext fun a => Fin.ext (by
    match a with
    | ⟨0, _⟩ => show win1_7.index t (0 : Fin 2) * 8000 + 1 * p.val = win1_7.index t (0 : Fin 2) * 8000 + p.val; omega
    | ⟨1, _⟩ => show win1_7.index t (1 : Fin 2) * 1 + 1 * q.val = q.val; omega)
  show score (A := 8000) (K := 64) (B := 1)
      (tanhLayer (A := 8000) (K := 64) (B := 64) (iblk1 V c 0 t) (iblk1 V c 1 t) (iblk1 V c 2 t) (iblk1 V c 3 t)
        (iblk1 V c 4 t)) (iblk1 V c 5 t) (iblk1 V c 6 t) (ix2 p q)
    = score (A := 1600000) (K := 64) (B := 1)
        (tanhLayer (A := 1600000) (K := 64) (B := 64) (V c main_v31) (V c main_v38) (V c main_v39) (V c main_v40)
          (V c main_v41)) (V c main_arg7) (V c main_v42) (((cfg1.win 7).blk t).view.emb (ix2 p q))
  rw [hr, h2, h3, h4, h5, h6]
  refine score_row (A := 1600000) (A' := 8000) _ _ (V c main_arg7) (V c main_v42) p _ q (fun k => ?_)
  refine tanhLayer_row (A := 1600000) (A' := 8000) (V c main_v31) (V c main_v38) (iblk1 V c 0 t) (iblk1 V c 1 t)
    (V c main_v39) (V c main_v40) (V c main_v41) p _ k (fun k' => ?_) (fun k' => ?_)
  · show V c main_v31 (((cfg1.win 0).blk t).view.emb (ix2 p k')) = V c main_v31 (ix2 _ k')
    refine congrArg _ (funext fun a => Fin.ext ?_)
    match a with
    | ⟨0, _⟩ => show win1_0.index t (0 : Fin 2) * 8000 + 1 * p.val = win1_7.index t (0 : Fin 2) * 8000 + p.val; omega
    | ⟨1, _⟩ => show win1_0.index t (1 : Fin 2) * 64 + 1 * k'.val = k'.val; omega
  · show V c main_v38 (((cfg1.win 1).blk t).view.emb (ix2 p k')) = V c main_v38 (ix2 _ k')
    refine congrArg _ (funext fun a => Fin.ext ?_)
    match a with
    | ⟨0, _⟩ => show win1_1.index t (0 : Fin 2) * 8000 + 1 * p.val = win1_7.index t (0 : Fin 2) * 8000 + p.val; omega
    | ⟨1, _⟩ => show win1_1.index t (1 : Fin 2) * 64 + 1 * k'.val = k'.val; omega

/-- An index of the array lies in point t's block iff each coordinate lies in the block's range on its axis. -/
theorem mem_blk (t : Fin cfg1.N) (i : S1600000x1.Idx) :
    i ∈ ((cfg1.win 7).blk t).view.set ↔ ∀ a : Fin 2, win1_7.index t a * S8000x1.size a ≤ (i a).val
      ∧ (i a).val < win1_7.index t a * S8000x1.size a + S8000x1.size a := by
  show i ∈ ((View.whole main_v43).slice (win1_7.rect t)).set ↔ _
  rw [View.set_slice_whole, Rect.mem_set_unit]
  exact Iff.rfl

/-- The 200 blocks tile the array: row e lies in the block of point e / 8000. -/
theorem cover (i : S1600000x1.Idx) :
    ∃ t : Fin cfg1.N, (cfg1.win 7).flush t = true ∧ i ∈ ((cfg1.win 7).blk t).view.set := by
  have hi0 : (i 0).val < 1600000 := (i 0).isLt
  have hi1 : (i 1).val < 1 := (i 1).isLt
  obtain ⟨t, ht⟩ := idx_onto ⟨(i 0).val / 8000, by omega⟩
  have q0 : win1_7.index t (0 : Fin 2) = (i 0).val / 8000 := congrFun ht 0
  have q1 : win1_7.index t (1 : Fin 2) = 0 := congrFun ht 1
  refine ⟨t, flush1_7 t, ?_⟩
  rw [mem_blk]
  intro a
  match a with
  | ⟨0, _⟩ =>
    show win1_7.index t (0 : Fin 2) * 8000 ≤ (i 0).val ∧ (i 0).val < win1_7.index t (0 : Fin 2) * 8000 + 8000
    omega
  | ⟨1, _⟩ =>
    show win1_7.index t (1 : Fin 2) * 1 ≤ (i 1).val ∧ (i 1).val < win1_7.index t (1 : Fin 2) * 1 + 1
    omega

/-- The result array after the second kernel is the two stages of the whole arrays it was entered with. -/
theorem final (c : Dev nD) :
    (dat1 V c).arrAt 7 cfg1.N = score (A := 1600000) (K := 64) (B := 1)
      (tanhLayer (A := 1600000) (K := 64) (B := 64) (V c main_v31) (V c main_v38) (V c main_v39) (V c main_v40)
        (V c main_v41)) (V c main_arg7) (V c main_v42) :=
  (dat1 V c).arrAt_eq_of_cover 7 _ (fun t _ => flushed_eq V c t) cover

end Cert.KernelIdeal.EdgeValue

end
-- ==== Proof.RefStages.lean ====
/-
  THE REFERENCE'S THREE DENSE STAGES, as the layer functions of LibEdgeScore.

  The reference computes, on the host,
    * the node embeddings      H  = tanh((M · W_l + b_l) + X · W_r)            with M the neighbourhood means,
    * the edges' hidden vectors T = tanh([H[src] | H[dst]] · W1 + b1)          (the two gathered arrays side by side),
    * the result                   1 / (1 + exp(−tanh(T · W2 + b2))).
  On the extended reals the first is tanhLayer M X W_l W_r b_l (a sum of three terms in another order), the second is
  tanhLayer H[src] H[dst] W1[0:64] W1[64:128] b1 (the contraction over 128 columns splits at column 64), and the
  third is score T W2 b2 (the logistic function written out). The stages before and between them — the scatter-add
  mean and the two gathers — are kept as the reference's own terms.
-/
import proofs.«123352_j36112085025196_1_alg».proof.Proof.Gen.ReferenceIdeal.Read
import proofs.«123352_j36112085025196_1_alg».proof.Proof.LibEdgeScore

noncomputable section

namespace Cert.ReferenceIdeal.Stages

open Cert.ReferenceIdeal Cert.ReferenceIdeal.Gen Cert.ReferenceIdeal.Read Cert.EdgeScore Cert.SplitDot
open Idealize.ShloMosaic Idealize.ShloMosaic.ValueIdx

/-- The node embeddings are the layer of the neighbourhood means and the features. -/
theorem embed_eq (x0 : (⟨S100000x32, .f32⟩ : BufTy).Contents (Elt Ideal)) (x1 : (⟨S2x1600000, .i32⟩ : BufTy).Contents (Elt Ideal)) (x2 x3 : (⟨S32x64, .f32⟩ : BufTy).Contents (Elt Ideal)) (x4 : (⟨S64, .f32⟩ : BufTy).Contents (Elt Ideal)) :
    val_main_v29 (F := Ideal) x0 x1 x2 x3 x4
      = tanhLayer (A := 100000) (K := 32) (B := 64) (val_main_v22 (F := Ideal) x0 x1) x0 x2 x3 (rowOf (B := 64) x4) := by
  unfold val_main_v29 val_main_v28 val_main_v26 val_main_v27 val_main_v23 val_main_v25 val_main_v24
  exact host_tanhLayer dot_S100000x32_S32x64_S100000x64_1_0_0_1_n_n rfl rfl rfl rfl rfl rfl _ _ _ _ x4
    bcast_S64_S1x64_1 bcast_S1x64_S100000x64_0_1

/-- The edges' hidden vectors are the layer of the two gathered arrays over the two halves of the weight matrix. -/
theorem hidden_eq (x0 : (⟨S100000x32, .f32⟩ : BufTy).Contents (Elt Ideal)) (x1 : (⟨S2x1600000, .i32⟩ : BufTy).Contents (Elt Ideal)) (x2 x3 : (⟨S32x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) :
    val_main_v49 (F := Ideal) x0 x1 x2 x3 x4 x5 x6
      = tanhLayer (A := 1600000) (K := 64) (B := 64) (val_main_v36 (F := Ideal) x0 x1 x2 x3 x4)
          (val_main_v43 (F := Ideal) x0 x1 x2 x3 x4) (rowsFrom (B := 64) (Kt := 128) 0 64 (by omega) x5)
          (rowsFrom (B := 64) (Kt := 128) 64 64 (by omega) x5) (rowOf (B := 64) x6) := by
  unfold val_main_v49 val_main_v48 val_main_v45 val_main_v44 val_main_v47 val_main_v46
  exact host_tanhLayer_concat (A := 1600000) (K := 64) (B := 64) (Kt := 128) rfl
    dot_S1600000x128_S128x64_S1600000x64_1_0_0_1_n_n rfl rfl rfl rfl rfl rfl _ _ x5 x6
    concatenates_S1600000x64_S1600000x64_S1600000x128_d1 bcast_S64_S1x64_1 bcast_S1x64_S1600000x64_0_1

/-- The result is the score of the hidden vectors. -/
theorem out_eq (x0 : (⟨S100000x32, .f32⟩ : BufTy).Contents (Elt Ideal)) (x1 : (⟨S2x1600000, .i32⟩ : BufTy).Contents (Elt Ideal)) (x2 x3 : (⟨S32x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal)) :
    val_main_v60 (F := Ideal) x0 x1 x2 x3 x4 x5 x6 x7 x8
      = score (A := 1600000) (K := 64) (B := 1) (val_main_v49 (F := Ideal) x0 x1 x2 x3 x4 x5 x6) x7 (rowOf (B := 1) x8) := by
  unfold val_main_v60 val_main_v59 val_main_v58 val_main_v57 val_main_v56 val_main_v55 val_main_v54 val_main_v53
    val_main_v50 val_main_v52 val_main_v51 val_main_cst_8 val_main_cst_9
  exact host_score dot_S1600000x64_S64x1_S1600000x1_1_0_0_1_n_n rfl rfl rfl rfl rfl rfl _ x7 x8
    bcast_S1_S1x1_1 bcast_S1x1_S1600000x1_0_1 bcast_S_S1600000x1

/-- The reference's result as the two layer functions over its own gathered embeddings. -/
theorem result_eq (x0 : (⟨S100000x32, .f32⟩ : BufTy).Contents (Elt Ideal)) (x1 : (⟨S2x1600000, .i32⟩ : BufTy).Contents (Elt Ideal)) (x2 x3 : (⟨S32x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal)) :
    val_main_v60 (F := Ideal) x0 x1 x2 x3 x4 x5 x6 x7 x8
      = score (A := 1600000) (K := 64) (B := 1)
          (tanhLayer (A := 1600000) (K := 64) (B := 64) (val_main_v36 (F := Ideal) x0 x1 x2 x3 x4)
            (val_main_v43 (F := Ideal) x0 x1 x2 x3 x4) (rowsFrom (B := 64) (Kt := 128) 0 64 (by omega) x5)
            (rowsFrom (B := 64) (Kt := 128) 64 64 (by omega) x5) (rowOf (B := 64) x6)) x7 (rowOf (B := 1) x8) := by
  rw [out_eq, hidden_eq]

end Cert.ReferenceIdeal.Stages

end
-- ==== Proof.KernelValue.lean ====
/-
  THE KERNEL PROGRAM'S RESULT AS A FUNCTION OF ITS ARGUMENTS.

  Walking the buffer contents through the program's four segments:
    * the first stretch of host operations computes the neighbourhood means M — the same scatter-add, count and
      division, in the same order, as the reference's — casts the bias b_l to one row, and keeps the edge list's
      two rows;
    * the node kernel leaves  H = tanhLayer M X W_l W_r b_l  in the embedding array (NodeValue), which is the
      reference's embedding stage;
    * the second stretch gathers H at each edge's source and destination — the same index arithmetic and the same
      gathers as the reference's —, cuts W1 into its upper and lower 64 rows and casts b1 and b2 to one row;
    * the edge kernel leaves  score (tanhLayer H[src] H[dst] W1[0:64] W1[64:128] b1) W2 b2  in the result array
      (EdgeValue).
  The host stages shared with the reference are stated as the reference's own stage functions of the arguments.
-/
import proofs.«123352_j36112085025196_1_alg».proof.Proof.Gen.KernelIdeal.Frame
import proofs.«123352_j36112085025196_1_alg».proof.Proof.Gen.ReferenceIdeal.Read
import proofs.«123352_j36112085025196_1_alg».proof.Proof.NodeValue
import proofs.«123352_j36112085025196_1_alg».proof.Proof.EdgeValue
import proofs.«123352_j36112085025196_1_alg».proof.Proof.RefStages
import Idealize.ShloMosaic.Lib.StableHlo.Run

set_option maxRecDepth 16384
set_option maxHeartbeats 2000000

noncomputable section

namespace Cert.KernelIdeal.Result

open Cert.KernelIdeal Cert.KernelIdeal.Gen Cert.EdgeScore Cert.SplitDot
open Cert.ReferenceIdeal.Read (val_main_v1 val_main_v3 val_main_v22 val_main_v29 val_main_v36 val_main_v43)
open Idealize.ShloMosaic Idealize.ShloMosaic.TcCoe Idealize.ShloMosaic.Tactic Idealize.ShloMosaic.ValueIdx
open Idealize.SL.Sem Idealize.ShloMosaic.StableHlo

variable (m : (ℓ : Loc nD τ sig) → Buf (Elt Ideal) ℓ) (ρ : Dev nD → PrngReg)

/-! ## The buffers when the node kernel is entered -/

theorem entry0_means (c : Dev nD) :
    V1 m ρ c main_v22 = val_main_v22 (F := Ideal) (m ((c : Thread nD τ).loc main_arg0)) (m ((c : Thread nD τ).loc main_arg1)) := by
  show StableHlo.after hostOps0 (W0 m ρ c) (Proc.devRef .tc main_v22) = _
  after_results_simp <;> rfl

theorem entry0_bias (c : Dev nD) : V1 m ρ c main_v23 = rowOf (B := 64) (m ((c : Thread nD τ).loc main_arg4)) := by
  show StableHlo.after hostOps0 (W0 m ρ c) (Proc.devRef .tc main_v23) = _
  after_results_simp
  exact shapeCast_eq_rowOf (B := 64) (m ((c : Thread nD τ).loc main_arg4)) shapeCasts_S64_S1x64

theorem entry0_arg0 (c : Dev nD) : V1 m ρ c main_arg0 = (m ((c : Thread nD τ).loc main_arg0)) := by
  show StableHlo.after hostOps0 (W0 m ρ c) (Proc.devRef .tc main_arg0) = _
  after_results_simp <;> rfl

theorem entry0_arg2 (c : Dev nD) : V1 m ρ c main_arg2 = (m ((c : Thread nD τ).loc main_arg2)) := by
  show StableHlo.after hostOps0 (W0 m ρ c) (Proc.devRef .tc main_arg2) = _
  after_results_simp <;> rfl

theorem entry0_arg3 (c : Dev nD) : V1 m ρ c main_arg3 = (m ((c : Thread nD τ).loc main_arg3)) := by
  show StableHlo.after hostOps0 (W0 m ρ c) (Proc.devRef .tc main_arg3) = _
  after_results_simp <;> rfl

/-! ## The buffers when the node kernel is left -/

/-- The embedding array holds the reference's embeddings. -/
theorem exit0_embed (c : Dev nD) :
    W2 m ρ c (Proc.devRef .tc main_v24) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((NodeValue.final (V1 m ρ) c).trans ?_)
  rw [entry0_means, entry0_arg0, entry0_arg2, entry0_arg3, entry0_bias]
  exact (Cert.ReferenceIdeal.Stages.embed_eq _ _ _ _ _).symm

theorem exit0_src (c : Dev nD) : W2 m ρ c (Proc.devRef .tc main_v1) = val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp <;> rfl

theorem exit0_dst (c : Dev nD) : W2 m ρ c (Proc.devRef .tc main_v3) = val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl

theorem exit0_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp <;> rfl

theorem exit0_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp <;> rfl

theorem exit0_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp <;> rfl

theorem exit0_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp <;> rfl

/-! ## The buffers when the edge kernel is entered -/

/-- The embeddings gathered at each edge's source are the reference's. -/
theorem entry1_src (c : Dev nD) :
    V3 m ρ c main_v31 = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v31) = _
  after_results_simp
  rw [exit0_embed, exit0_src]
  rfl

/-- The embeddings gathered at each edge's destination are the reference's. -/
theorem entry1_dst (c : Dev nD) :
    V3 m ρ c main_v38 = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v38) = _
  after_results_simp
  rw [exit0_embed, exit0_dst]
  rfl

theorem entry1_upper (c : Dev nD) :
    V3 m ρ c main_v39 = rowsFrom (B := 64) (Kt := 128) 0 64 (by omega) (m ((c : Thread nD τ).loc main_arg5)) := by
  show StableHlo.after hostOps1 (W2 m ρ c) (Proc.devRef .tc main_v39) = _
  after_results_simp
  rw [exit0_arg5]
  exact slice_eq (B := 64) (Kt := 128) 0 64 (by omega) (m ((c : Thread nD τ).loc main_arg5)) slices_S128x64_S64x64_0_0

theorem entry1_lower (c : Dev nD) :
    V3 m ρ c main_v40 = rowsFrom (B := 64) (Kt := 128) 64 64 (by omega) (m ((c : Thread nD τ).loc main_arg5)) := by
  show StableHlo.after hostOps1 (W2 m ρ c) (Proc.devRef .tc main_v40) = _
  after_results_simp
  rw [exit0_arg5]
  exact slice_eq (B := 64) (Kt := 128) 64 64 (by omega) (m ((c : Thread nD τ).loc main_arg5)) slices_S128x64_S64x64_64_0

theorem entry1_bias1 (c : Dev nD) : V3 m ρ c main_v41 = rowOf (B := 64) (m ((c : Thread nD τ).loc main_arg6)) := by
  show StableHlo.after hostOps1 (W2 m ρ c) (Proc.devRef .tc main_v41) = _
  after_results_simp
  rw [exit0_arg6]
  exact shapeCast_eq_rowOf (B := 64) (m ((c : Thread nD τ).loc main_arg6)) shapeCasts_S64_S1x64

theorem entry1_w2 (c : Dev nD) : V3 m ρ c main_arg7 = (m ((c : Thread nD τ).loc main_arg7)) := by
  show StableHlo.after hostOps1 (W2 m ρ c) (Proc.devRef .tc main_arg7) = _
  after_results_simp
  exact exit0_arg7 m ρ c

theorem entry1_bias2 (c : Dev nD) : V3 m ρ c main_v42 = rowOf (B := 1) (m ((c : Thread nD τ).loc main_arg8)) := by
  show StableHlo.after hostOps1 (W2 m ρ c) (Proc.devRef .tc main_v42) = _
  after_results_simp
  rw [exit0_arg8]
  exact shapeCast_eq_rowOf (B := 1) (m ((c : Thread nD τ).loc main_arg8)) shapeCasts_S1_S1x1

/-! ## The result -/

/-- The result array at the end of the run, as the two layer functions over the reference's gathered embeddings. -/
theorem value (c : Dev nD) :
    W4 m ρ c (Proc.devRef .tc main_v43)
      = score (A := 1600000) (K := 64) (B := 1)
        (tanhLayer (A := 1600000) (K := 64) (B := 64) (val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
          (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
          (rowsFrom (B := 64) (Kt := 128) 0 64 (by omega) (m ((c : Thread nD τ).loc main_arg5)))
          (rowsFrom (B := 64) (Kt := 128) 64 64 (by omega) (m ((c : Thread nD τ).loc main_arg5))) (rowOf (B := 64) (m ((c : Thread nD τ).loc main_arg6))))
        (m ((c : Thread nD τ).loc main_arg7)) (rowOf (B := 1) (m ((c : Thread nD τ).loc main_arg8))) := by
  refine (W4_arr m ρ c 7).trans ((EdgeValue.final (V3 m ρ) c).trans ?_)
  rw [entry1_src, entry1_dst, entry1_upper, entry1_lower, entry1_bias1, entry1_w2, entry1_bias2]

end Cert.KernelIdeal.Result

end
-- ==== Proof.lean ====
/-
  An edge-scoring network on a graph of 100000 nodes and 1600000 edges: a kernel program against its host
  reference, equal on the extended reals.

  Both programs compute, from node features X, an edge list (src, dst) and the weights,
      M = (Σ_{e : dst(e) = n} X[src(e)]) / max(#{e : dst(e) = n}, 1)                the neighbourhood means,
      H = tanh(M · W_l + b_l + X · W_r)                                           the node embeddings,
      T = tanh([H[src] | H[dst]] · W1 + b1)                                        the edges' hidden vectors,
      out = logistic(tanh(T · W2 + b2)).
  The kernel program computes M, the gathers H[src], H[dst] and the index arithmetic by the same host operations in
  the same order as the reference; it computes H in a kernel over 20 blocks of 5000 nodes, adding the bias last, and
  T and out in a second kernel over 200 blocks of 8000 edges, with the product against W1 split into the products of
  H[src] with W1's upper 64 rows and of H[dst] with its lower 64 rows. On the extended reals addition is commutative
  and associative and a finite sum splits into consecutive ranges, each dense stage reads at an output row only that
  row of its row operands, a rounding to a narrower float format is the identity, and the logistic function is
  1 / (1 + exp(−z)) by definition; so both programs end with the same array
      score (tanhLayer H[src] H[dst] W1[0:64] W1[64:128] b1) W2 b2.
  No step needs an entry to be finite: the precondition is not used.

  The three frames: the kernel programs' are their generated frame certificates; the reference has no kernel and its
  frame is its run with the result dropped. The idealization rewrote no operation, so `preserves` is trivial.
-/
import proofs.«123352_j36112085025196_1_alg».proof.Defs
import proofs.«123352_j36112085025196_1_alg».proof.Proof.Gen.Kernel
import proofs.«123352_j36112085025196_1_alg».proof.Proof.Gen.Kernel.Frame
import proofs.«123352_j36112085025196_1_alg».proof.Proof.Gen.KernelIdeal
import proofs.«123352_j36112085025196_1_alg».proof.Proof.Gen.KernelIdeal.Frame
import proofs.«123352_j36112085025196_1_alg».proof.Proof.Gen.ReferenceIdeal
import proofs.«123352_j36112085025196_1_alg».proof.Proof.Gen.Pre_finite_inputs
import proofs.«123352_j36112085025196_1_alg».proof.Proof.Gen.ReferenceIdeal.Run
import proofs.«123352_j36112085025196_1_alg».proof.Proof.Gen.ReferenceIdeal.Read
import proofs.«123352_j36112085025196_1_alg».proof.Proof.KernelRun
import proofs.«123352_j36112085025196_1_alg».proof.Proof.KernelValue
import proofs.«123352_j36112085025196_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the two layer functions over the gathered embeddings. -/
theorem algebraic : Cert.algebraic_KernelIdeal_ReferenceIdeal := by
  intro m ρ m' ρ' _ hagree
  refine ⟨fun c => Cert.EdgeScore.score (A := 1600000) (K := 64) (B := 1)
      (Cert.EdgeScore.tanhLayer (A := 1600000) (K := 64) (B := 64)
        (Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
        (Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
        (Cert.SplitDot.rowsFrom (B := 64) (Kt := 128) 0 64 (by omega) (m ((c.tc : Thread Cert.KernelIdeal.nD Cert.KernelIdeal.τ).loc Cert.KernelIdeal.main_arg5)))
        (Cert.SplitDot.rowsFrom (B := 64) (Kt := 128) 64 64 (by omega) (m ((c.tc : Thread Cert.KernelIdeal.nD Cert.KernelIdeal.τ).loc Cert.KernelIdeal.main_arg5)))
        (Cert.EdgeScore.rowOf (B := 64) (m ((c.tc : Thread Cert.KernelIdeal.nD Cert.KernelIdeal.τ).loc Cert.KernelIdeal.main_arg6))))
      (m ((c.tc : Thread Cert.KernelIdeal.nD Cert.KernelIdeal.τ).loc Cert.KernelIdeal.main_arg7)) (Cert.EdgeScore.rowOf (B := 1) (m ((c.tc : Thread Cert.KernelIdeal.nD Cert.KernelIdeal.τ).loc Cert.KernelIdeal.main_arg8))), ?_, ?_⟩
  · exact (θ_run Cert.KernelIdeal.defs _ _).mono
      (fun r h c => ⟨(h c).1.trans (Cert.KernelIdeal.Result.value m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v60_eq, Cert.ReferenceIdeal.Stages.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
